-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S4x1x1024x1024 : Shape := ⟨4, ![4, 1, 1024, 1024]⟩
abbrev S1024x1024 : Shape := ⟨2, ![1024, 1024]⟩
abbrev S1024 : Shape := ⟨1, ![1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S4x1x1024x1024 : S_.BroadcastsInDim S4x1x1024x1024 (![] : Fin 0 → Fin S4x1x1024x1024.rank)
  reducesTo_S4x1x1024x1024_S_d0_1_2_3 : S4x1x1024x1024.ReducesTo [0, 1, 2, 3] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x1024x1024 .f32) (main_arg1 : FVec F S4x1x1024x1024 .f32) (main_arg2 : FVec F S1024x1024 .f32) (main_arg3 : FVec F S1024x1024 .f32) (main_arg4 : FVec F S1024x1024 .f32) (main_arg5 : FVec F S1024x1024 .f32) (main_arg6 : FVec F S1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S4x1x1024x1024 .f32 := Host.absf main_arg1
  let main_cst_0 : FVec F S_ .f32 := constant S_ .f32 0x7F800000#32
  let main_v5 : FVec F S4x1x1024x1024 .f32 := broadcastInDim S4x1x1024x1024 ![] bcast_S_S4x1x1024x1024 main_cst_0
  let main_v6 : IVec S4x1x1024x1024 1 := cmpf .olt main_v4 main_v5
  let main_c_1 : IVec S_ 1 := constantI S_ 1 1#1
  let main_v7 : IVec S_ 1 := (fun x v => Host.reduce IntOp.andi x v reducesTo_S4x1x1024x1024_S_d0_1_2_3 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x1024x1024 : Shape := ⟨3, ![4, 1024, 1024]⟩
abbrev S4x1x1024x1024 : Shape := ⟨4, ![4, 1, 1024, 1024]⟩
abbrev S1024x1024 : Shape := ⟨2, ![1024, 1024]⟩
abbrev S1024 : Shape := ⟨1, ![1024]⟩
abbrev S1x1024x1024 : Shape := ⟨3, ![1, 1024, 1024]⟩
abbrev S1x1x1024x1024 : Shape := ⟨4, ![1, 1, 1024, 1024]⟩
abbrev S128x1024 : Shape := ⟨2, ![128, 1024]⟩
abbrev S64x1024 : Shape := ⟨2, ![64, 1024]⟩
abbrev S1024x64 : Shape := ⟨2, ![1024, 64]⟩
abbrev S1024x1 : Shape := ⟨2, ![1024, 1]⟩
abbrev S1x1024 : Shape := ⟨2, ![1, 1024]⟩

abbrev nBuf : Space → Nat
  | .hbm => 9
  | .vmem => 16
  | .smem => 0
  | _ => 0

abbrev bufTy : (tb : Table) → Fin (tcTables nBuf tb) → BufTy
  | .hbm, ⟨0, _⟩ => ⟨S4x1024x1024, .f32⟩
  | .hbm, ⟨1, _⟩ => ⟨S4x1x1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S4x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1024x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S1024x1024_S1024x1024_1_0 : S1024x1024.Transposes [1, 0] S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S128x1024_o0_0_S64x1024 : S128x1024.Slices ![0, 0] S64x1024
  transposes_S64x1024_p1_0_S1024x64 : S64x1024.Transposes [1, 0] S1024x64
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  slices_S128x1024_o64_0_S64x1024 : S128x1024.Slices ![64, 0] S64x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x1024_S1x1024x1024 : S1024x1024.ShapeCasts S1x1024x1024
  dot_S1024x1024_S1024x64_S1024x64_1_0_0_1_n_n_wf : DotDims.WF S1024x1024 S1024x64 S1024x64 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x1024x1024.size a
  hwx0_0 : ∀ i : grid0.Coords, EltTy.bits .f32 = 32 ∨ (Rect.block (s := S4x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S4x1x1024x1024.size a
  hwx0_1 : ∀ i : grid0.Coords, EltTy.bits .f32 = 32 ∨ (Rect.block (s := S4x1x1024x1024) S1x1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S1024x1024.size a
  hwx0_2 : ∀ i : grid0.Coords, EltTy.bits .f32 = 32 ∨ (Rect.block (s := S1024x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S1024x1024.size a
  hwx0_3 : ∀ i : grid0.Coords, EltTy.bits .f32 = 32 ∨ (Rect.block (s := S1024x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S1024x1024.size a
  hwx0_4 : ∀ i : grid0.Coords, EltTy.bits .f32 = 32 ∨ (Rect.block (s := S1024x1024) S128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S1024x1024.size a
  hwx0_5 : ∀ i : grid0.Coords, EltTy.bits .f32 = 32 ∨ (Rect.block (s := S1024x1024) S128x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x1024.size a ≤ S4x1024x1024.size a
  hwx0_7 : ∀ i : grid0.Coords, EltTy.bits .f32 = 32 ∨ (Rect.block (s := S4x1024x1024) S1x1024x1024.size (cc0_transform_7 i) (hinb0_7 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x1024x1024 : Shape := ⟨3, ![4, 1024, 1024]⟩
abbrev S4x1x1024x1024 : Shape := ⟨4, ![4, 1, 1024, 1024]⟩
abbrev S1024x1024 : Shape := ⟨2, ![1024, 1024]⟩
abbrev S1024 : Shape := ⟨1, ![1024]⟩
abbrev S4x1024x16x64 : Shape := ⟨4, ![4, 1024, 16, 64]⟩
abbrev S4x16x1024x64 : Shape := ⟨4, ![4, 16, 1024, 64]⟩
abbrev S4x16x1024x1024 : Shape := ⟨4, ![4, 16, 1024, 1024]⟩
abbrev S_ : Shape := ⟨0, ![]⟩
abbrev S4x16x1024 : Shape := ⟨3, ![4, 16, 1024]⟩
abbrev S4x16x1024x1 : Shape := ⟨4, ![4, 16, 1024, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1x1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S4x1024x1024, .f32⟩
  | .hbm, ⟨8, _⟩ => ⟨S4x1024x16x64, .f32⟩
  | .hbm, ⟨9, _⟩ => ⟨S4x16x1024x64, .f32⟩
  | .hbm, ⟨10, _⟩ => ⟨S4x1024x1024, .f32⟩
  | .hbm, ⟨11, _⟩ => ⟨S4x1024x16x64, .f32⟩
  | .hbm, ⟨12, _⟩ => ⟨S4x16x1024x64, .f32⟩
  | .hbm, ⟨13, _⟩ => ⟨S4x1024x1024, .f32⟩
  | .hbm, ⟨14, _⟩ => ⟨S4x1024x16x64, .f32⟩
  | .hbm, ⟨15, _⟩ => ⟨S4x16x1024x64, .f32⟩
  | .hbm, ⟨16, _⟩ => ⟨S4x16x1024x1024, .f32⟩
  | .hbm, ⟨17, _⟩ => ⟨S_, .f32⟩
  | .hbm, ⟨18, _⟩ => ⟨S4x16x1024x1024, .f32⟩
  | .hbm, ⟨19, _⟩ => ⟨S4x16x1024x1024, .f32⟩
  | .hbm, ⟨20, _⟩ => ⟨S4x16x1024x1024, .f32⟩
  | .hbm, ⟨21, _⟩ => ⟨S4x16x1024x1024, .f32⟩
  | .hbm, ⟨22, _⟩ => ⟨S_, .f32⟩
  | .hbm, ⟨23, _⟩ => ⟨S4x16x1024, .f32⟩
  | .hbm, ⟨24, _⟩ => ⟨S_, .f32⟩
  | .hbm, ⟨25, _⟩ => ⟨S4x16x1024, .f32⟩
  | .hbm, ⟨26, _⟩ => ⟨S4x16x1024, .f32⟩
  | .hbm, ⟨27, _⟩ => ⟨S4x16x1024x1, .f32⟩
  | .hbm, ⟨28, _⟩ => ⟨S4x16x1024x1024, .f32⟩
  | .hbm, ⟨29, _⟩ => ⟨S4x16x1024x1024, .f32⟩
  | .hbm, ⟨30, _⟩ => ⟨S4x16x1024x1024, .f32⟩
  | .hbm, ⟨31, _⟩ => ⟨S_, .f32⟩
  | .hbm, ⟨32, _⟩ => ⟨S4x16x1024, .f32⟩
  | .hbm, ⟨33, _⟩ => ⟨S4x16x1024x1, .f32⟩
  | .hbm, ⟨34, _⟩ => ⟨S4x16x1024x1024, .f32⟩
  | .hbm, ⟨35, _⟩ => ⟨S4x16x1024x1024, .f32⟩
  | .hbm, ⟨36, _⟩ => ⟨S4x16x1024x64, .f32⟩
  | .hbm, ⟨37, _⟩ => ⟨S4x1024x16x64, .f32⟩
  | .hbm, ⟨38, _⟩ => ⟨S4x1024x1024, .f32⟩
  | .hbm, ⟨39, _⟩ => ⟨S4x1024x1024, .f32⟩
  | .hbm, ⟨40, _⟩ => ⟨S1x1x1024, .f32⟩
  | .hbm, ⟨41, _⟩ => ⟨S4x1024x1024, .f32⟩
  | .hbm, ⟨42, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  bcast_S_S4x16x1024x1024 : S_.BroadcastsInDim S4x16x1024x1024 (![] : Fin 0 → Fin S4x16x1024x1024.rank)
  bcast_S4x1x1024x1024_S4x16x1024x1024_0_1_2_3 : S4x1x1024x1024.BroadcastsInDim S4x16x1024x1024 (![0, 1, 2, 3] : Fin 4 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  dot_S4x1024x1024_S1024x1024_S4x1024x1024_2_1_01_0_n_n_wf : DotDims.WF S4x1024x1024 S1024x1024 S4x1024x1024 [2] [1] [0, 1] [0] [] []
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x1024x1024_S1024x1024_S4x1024x1024_2_1_01_0_n_n : DotDims S4x1024x1024 S1024x1024 S4x1024x1024 where
  lhsContracting := [2]
  rhsContracting := [1]
  lhsNonContracting := [0, 1]
  rhsNonContracting := [0]
  lhsBatch := []
  rhsBatch := []
  wf := dot_S4x1024x1024_S1024x1024_S4x1024x1024_2_1_01_0_n_n_wf
def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.AttnSpec.lean ====
/-
  Multi-head self-attention over the extended reals, entry by entry.

  For one batch element the inputs are a matrix x (tokens by channels), an additive mask (tokens by tokens) and, per
  head, four 64-row slices of the projection matrices. A head projects x to queries, keys and values (rows of x against
  rows of the slice), scores a pair of tokens by the dot product of a query with a key, times 1/8, plus the mask entry,
  normalises every row of scores by softmax (exponentials of the scores less their row maximum, over their row sum),
  averages the values with those weights, and sends the result through its slice of the output projection. The layer's
  output is the sum of the sixteen heads' contributions plus the bias.

  The output projection contracts all 1024 channels at once, or head by head (16 x 64), or two heads at a time over eight
  steps with the last two steps split off: the same finite sum, regrouped. Addition on the extended reals is
  commutative and associative, so no finiteness is needed.
-/
import Idealize.ShloMosaic.PureOps.Ideal.Laws
import Idealize.ShloMosaic.Lib.ValueIdx

noncomputable section

open scoped BigOperators

namespace Cert.Attn

open Idealize.ShloMosaic

/-- Minus infinity, as the f32 word both programs start their row maximum from. -/
abbrev negInf : EReal := Ideal.ofBits .f32 0xFF800000#32
/-- The score scale 1/8 = 64^(-1/2), as the f32 word both programs multiply by. -/
abbrev eighth : EReal := Ideal.ofBits .f32 0x3E000000#32

section Head
variable {N C D : ℕ}

/-- A linear projection: row n of x against row d of w. -/
def lin (x : Fin N → Fin C → EReal) (w : Fin D → Fin C → EReal) (n : Fin N) (d : Fin D) : EReal :=
  ∑ c : Fin C, x n c * w d c

/-- The score of query n against key m. -/
def score (q k : Fin N → Fin D → EReal) (mk : Fin N → Fin N → EReal) (n m : Fin N) : EReal :=
  (∑ d : Fin D, q n d * k m d) * eighth + mk n m

/-- A row's maximum, folded from minus infinity (and once more capped below by it, as both programs do). -/
def rowMax (s : Fin N → Fin N → EReal) (n : Fin N) : EReal :=
  max negInf ((Finset.univ : Finset (Fin N)).fold max negInf (s n))

/-- The shifted exponential. -/
def ex (s : Fin N → Fin N → EReal) (n m : Fin N) : EReal := Ideal.exp (s n m - rowMax s n)

/-- The softmax weight. -/
def prob (s : Fin N → Fin N → EReal) (n m : Fin N) : EReal := Ideal.div (ex s n m) (∑ m' : Fin N, ex s n m')

/-- The weighted average of the values. -/
def ctx (p : Fin N → Fin N → EReal) (v : Fin N → Fin D → EReal) (n : Fin N) (d : Fin D) : EReal :=
  ∑ m : Fin N, p n m * v m d

/-- One head's output. -/
def head (x : Fin N → Fin C → EReal) (mk : Fin N → Fin N → EReal) (wq wk wv : Fin D → Fin C → EReal) :
    Fin N → Fin D → EReal :=
  ctx (prob (score (lin x wq) (lin x wk) mk)) (lin x wv)

/-- One head's contribution to the output projection; wp d o is the projection weight from the head's channel d to
    output channel o. -/
def contrib (x : Fin N → Fin C → EReal) (mk : Fin N → Fin N → EReal) (wq wk wv : Fin D → Fin C → EReal)
    (wp : Fin D → Fin C → EReal) (n : Fin N) (o : Fin C) : EReal :=
  ∑ d : Fin D, head x mk wq wk wv n d * wp d o

end Head

/-- Channel d of head h among the 1024 channels (total in h: wrapped, the identity for h < 16). -/
def hrow (h : ℕ) (d : Fin 64) : Fin 1024 := ⟨(h * 64 + d.val) % 1024, Nat.mod_lt _ (by norm_num)⟩

theorem hrow_val {h : ℕ} (hh : h < 16) (d : Fin 64) : (hrow h d).val = h * 64 + d.val := by
  have := d.isLt
  show (h * 64 + d.val) % 1024 = _
  omega

/-- A sum over the 1024 channels, head by head. -/
theorem sum_channels {M : Type*} [AddCommMonoid M] (f : Fin 1024 → M) :
    ∑ c : Fin 1024, f c = ∑ h ∈ Finset.range 16, ∑ d : Fin 64, f (hrow h d) := by
  have e : (16 * 64 : ℕ) = 1024 := by norm_num
  rw [← Fin.sum_univ_eq_sum_range (fun h => ∑ d : Fin 64, f (hrow h d)) 16,
    ← Equiv.sum_comp ((finProdFinEquiv (m := 16) (n := 64)).trans (finCongr e)) f, Fintype.sum_prod_type]
  refine Finset.sum_congr rfl fun h _ => Finset.sum_congr rfl fun d _ => congrArg f (Fin.ext ?_)
  have := h.isLt; have := d.isLt
  show d.val + 64 * h.val = (h.val * 64 + d.val) % 1024
  omega

/-- Sixteen terms taken two at a time, the last pair apart: the order in which the eight steps add them. -/
theorem sum_pairs {M : Type*} [AddCommMonoid M] (F : ℕ → M) (z : M) :
    ((z + ∑ s ∈ Finset.range 7, (F (2 * s) + F (2 * s + 1))) + F 14) + F 15 = z + ∑ h ∈ Finset.range 16, F h := by
  simp only [Finset.sum_range_succ, Finset.sum_range_zero, zero_add]
  norm_num
  ac_rfl

end Cert.Attn

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.KernelHead.lean ====
import proofs.«113542_j3238405341580_1_alg».proof.Proof.Gen.KernelIdeal.Skeleton
import proofs.«113542_j3238405341580_1_alg».proof.Proof.AttnSpec
import proofs.«113542_j3238405341580_1_alg».proof.Proof.LibMatmulPlain
import proofs.«113542_j3238405341580_1_alg».proof.Proof.LibColumns
import Idealize.ShloMosaic.Lib.ValueLayout
import Idealize.ShloMosaic.Lib.Pipeline.Value
import Idealize.ShloMosaic.PureOps.Ideal.Laws

noncomputable section

open scoped BigOperators

namespace Cert.KernelIdeal.Head

open Cert.KernelIdeal Cert.KernelIdeal.Gen Idealize.ShloMosaic Idealize.ShloMosaic.ValueIdx Cert.Attn

/-- Row `off + d` of a 128-row block: the rows of one of the block's two heads. -/
def brow (off : ℕ) (hoff : off + 64 ≤ 128) (d : Fin 64) : Fin 128 := ⟨off + d.val, by have := d.isLt; omega⟩

/-- The index over row p whose lane coordinate is k. -/
theorem lift_lane (h : S1024x1024.Reduces [(1 : Fin 2)] S1024) (p : Fin 1024) (k : Fin 1024) :
    h.lift (ix1 p) k = ix2 p k := by
  funext c
  apply Fin.ext
  match c with
  | ⟨0, _⟩ => rfl
  | ⟨1, _⟩ => rfl

/-- A projection of the token matrix by 64 rows of a weight block: tokens by channels against head-channels by channels. -/
theorem proj_apply (off : ℕ) (hoff : off + 64 ≤ 128) (x2 : FVec Ideal S1024x1024 .bf16) (W : FVec Ideal S128x1024 .f32)
    (hs : S128x1024.Slices ![off, 0] S64x1024) (hb : FTy.bits .bf16 < FTy.bits .f32)
    (ht : S64x1024.Transposes [1, 0] S1024x64) (n : Fin 1024) (d : Fin 64) :
    matmul dot_S1024x1024_S1024x64_S1024x64_1_0_0_1_n_n none x2
      (transpose S1024x64 [1, 0] (truncf .bf16 (extractStridedSlice S64x1024 ![off, 0] W hs) hb) ht)
      (constant S1024x64 .f32 0x00000000#32) (ix2 n d)
    = lin (fun n c => x2 (ix2 n c)) (fun d c => W (ix2 (brow off hoff d) c)) n d := by
  simp only [matmul]
  rw [Cert.LibMatmulPlain.matmul_plain_zero_apply dot_S1024x1024_S1024x64_S1024x64_1_0_0_1_n_n rfl]
  unfold lin
  refine Finset.sum_congr rfl fun c _ => ?_
  rw [transpose_ix2_apply, truncf_apply, slice2_axis0_apply off W hs d c (brow off hoff d) rfl]

/-- The token block with its unit batch axis dropped. -/
theorem pay4_apply (X1 : Vec Ideal S1x1024x1024 .f32) (n c : Fin 1024) : k0_pay4 X1 (ix2 n c) = X1 (ix3 0 n c) := by
  unfold k0_pay4
  rw [truncf_apply, shapeCast_1ab_ab_apply]

/-- The mask block with its two unit axes dropped. -/
theorem pay5_apply (MK1 : Vec Ideal S1x1x1024x1024 .f32) (n m : Fin 1024) : k0_pay5 MK1 (ix2 n m) = MK1 (ix4 0 0 n m) := by
  unfold k0_pay5 shapeCast
  exact congrArg MK1 (reshapeEquiv_ix2_11ab _ n m)

/-- The scores of one head: queries against keys, scaled, plus the mask. -/
theorem scores_apply (off : ℕ) (hoff : off + 64 ≤ 128) (x2 : FVec Ideal S1024x1024 .bf16) (mk : FVec Ideal S1024x1024 .f32)
    (WQ WK : FVec Ideal S128x1024 .f32)
    (hs : S128x1024.Slices ![off, 0] S64x1024) (hb : FTy.bits .bf16 < FTy.bits .f32)
    (ht : S64x1024.Transposes [1, 0] S1024x64) (ht' : S1024x64.Transposes [1, 0] S64x1024) (n m : Fin 1024) :
    addf (mulf (matmul dot_S1024x64_S64x1024_S1024x1024_1_0_0_1_n_n none
        (truncf .bf16 (matmul dot_S1024x1024_S1024x64_S1024x64_1_0_0_1_n_n none x2
          (transpose S1024x64 [1, 0] (truncf .bf16 (extractStridedSlice S64x1024 ![off, 0] WQ hs) hb) ht)
          (constant S1024x64 .f32 0x00000000#32)) hb)
        (transpose S64x1024 [1, 0] (truncf .bf16 (matmul dot_S1024x1024_S1024x64_S1024x64_1_0_0_1_n_n none x2
          (transpose S1024x64 [1, 0] (truncf .bf16 (extractStridedSlice S64x1024 ![off, 0] WK hs) hb) ht)
          (constant S1024x64 .f32 0x00000000#32)) hb) ht')
        (constant S1024x1024 .f32 0x00000000#32))
      (broadcast S1024x1024 (Scalar.ofBits .f32 0x3E000000#32))) mk (ix2 n m)
    = score (lin (fun n c => x2 (ix2 n c)) (fun d c => WQ (ix2 (brow off hoff d) c)))
        (lin (fun n c => x2 (ix2 n c)) (fun d c => WK (ix2 (brow off hoff d) c))) (fun n m => mk (ix2 n m)) n m := by
  rw [addf_apply, mulf_apply, broadcast_apply]
  simp only [matmul]
  rw [Cert.LibMatmulPlain.matmul_plain_zero_apply dot_S1024x64_S64x1024_S1024x1024_1_0_0_1_n_n rfl]
  unfold score
  refine congrArg (· + mk (ix2 n m)) (congrArg (· * eighth) (Finset.sum_congr rfl fun d _ => ?_))
  rw [truncf_apply, transpose_ix2_apply, truncf_apply]
  exact congrArg₂ (· * ·) (proj_apply off hoff x2 WQ hs hb ht n d) (proj_apply off hoff x2 WK hs hb ht m d)

/-- A row's maximum as the kernel takes it: the lane fold from minus infinity, capped below by minus infinity. -/
theorem max_apply (s : FVec Ideal S1024x1024 .f32) (hred : S1024x1024.Reduces [1] S1024) (n : Fin 1024) :
    maximumf (broadcast S1024 (Scalar.ofBits .f32 0xFF800000#32))
      (multiReduction .maximumf [1] S1024 s 0xFF800000#32 hred (.inl rfl) rfl) (ix1 n)
    = rowMax (fun a b => s (ix2 a b)) n := by
  rw [maximumf_apply, broadcast_apply]
  refine congrArg (max _) ((Ideal.multiReduction_maximumf_single s _ hred (.inl rfl) rfl (ix1 n)).trans ?_)
  exact congrArg (Finset.fold max _ · _) (funext fun k => congrArg s (lift_lane hred n k))

/-- The rest of a head after its scores: softmax along the lanes, the weighted average of the values, the head's slice of
    the output projection, added to the accumulator. The row maxima enter as a vector with its entries known. -/
theorem tail_apply (s : FVec Ideal S1024x1024 .f32) (mx : FVec Ideal S1024 .f32) (v : FVec Ideal S1024x64 .bf16)
    (wp : FVec Ideal S64x1024 .bf16) (acc : FVec Ideal S1024x1024 .f32)
    (hmx : ∀ n, mx (ix1 n) = rowMax (fun a b => s (ix2 a b)) n)
    (hc : S1024.ShapeCasts S1024x1) (hbr : S1024x1.Broadcasts S1024x1024) (hred : S1024x1024.Reduces [1] S1024)
    (hb : FTy.bits .bf16 < FTy.bits .f32) (hsc : S1024x1024.ShapeCasts S1024x1024) (n o : Fin 1024) :
    shapeCast S1024x1024 (addf acc (matmul dot_S1024x64_S64x1024_S1024x1024_1_0_0_1_n_n none
      (truncf .bf16 (matmul dot_S1024x1024_S1024x64_S1024x64_1_0_0_1_n_n none
        (truncf .bf16 (divf (exp (subf s (broadcastTo S1024x1024 (shapeCast S1024x1 mx hc) hbr)))
          (broadcastTo S1024x1024 (shapeCast S1024x1
            (multiReduction .add [1] S1024 (exp (subf s (broadcastTo S1024x1024 (shapeCast S1024x1 mx hc) hbr)))
              0x00000000#32 hred (.inl rfl) rfl) hc) hbr)) hb)
        v (constant S1024x64 .f32 0x00000000#32)) hb)
      wp (constant S1024x1024 .f32 0x00000000#32))) hsc (ix2 n o)
    = acc (ix2 n o) + ∑ d : Fin 64, ctx (prob (fun a b => s (ix2 a b))) (fun m d => v (ix2 m d)) n d * wp (ix2 d o) := by
  have hex : ∀ a b : Fin 1024, exp (subf s (broadcastTo S1024x1024 (shapeCast S1024x1 mx hc) hbr)) (ix2 a b)
      = ex (fun a b => s (ix2 a b)) a b := fun a b => by
    show Ideal.exp (s (ix2 a b) - broadcastTo S1024x1024 (shapeCast S1024x1 mx hc) hbr (ix2 a b)) = _
    rw [Cert.Columns.broadcastTo_a1_ab_apply, Cert.Columns.shapeCast_a_a1_apply, hmx]
    rfl
  rw [shapeCast_self, addf_apply]
  simp only [matmul]
  rw [Cert.LibMatmulPlain.matmul_plain_zero_apply dot_S1024x64_S64x1024_S1024x1024_1_0_0_1_n_n rfl]
  refine congrArg (acc (ix2 n o) + ·) (Finset.sum_congr rfl fun d _ => congrArg (· * wp (ix2 d o)) ?_)
  rw [truncf_apply, Cert.LibMatmulPlain.matmul_plain_zero_apply dot_S1024x1024_S1024x64_S1024x64_1_0_0_1_n_n rfl]
  unfold ctx
  refine Finset.sum_congr rfl fun m _ => congrArg (· * v (ix2 m d)) ?_
  rw [truncf_apply, divf_apply, hex, Cert.Columns.broadcastTo_a1_ab_apply, Cert.Columns.shapeCast_a_a1_apply]
  unfold prob
  refine congrArg (Ideal.div _) ((Ideal.multiReduction_add_single _ _ hred (.inl rfl) rfl (ix1 n)).trans ?_)
  exact Finset.sum_congr rfl fun k _ => (congrArg _ (lift_lane hred n k)).trans (hex n k)

/-! ## The payloads of the printed body, entry by entry -/

/-- The token matrix of the block. -/
def xfun (X0 : Vec Ideal S1x1024x1024 .f32) (n c : Fin 1024) : EReal := X0 (ix3 0 n c)
/-- The mask of the block. -/
def mkfun (X1 : Vec Ideal S1x1x1024x1024 .f32) (n m : Fin 1024) : EReal := X1 (ix4 0 0 n m)
/-- The 64 rows of a weight block that belong to the head starting at row `off`. -/
def wrow (off : ℕ) (hoff : off + 64 ≤ 128) (W : Vec Ideal S128x1024 .f32) (d : Fin 64) (c : Fin 1024) : EReal :=
  W (ix2 (brow off hoff d) c)

theorem h0 : 0 + 64 ≤ 128 := by norm_num
theorem h64 : 64 + 64 ≤ 128 := by norm_num

theorem pay6_eq (X5 : Vec Ideal S128x1024 .f32) : k0_pay6 X5 = X5 := by
  simp only [k0_pay6]
  exact shapeCast_self _ _

theorem pay8_apply (X5 : Vec Ideal S128x1024 .f32) (d : Fin 64) (o : Fin 1024) : k0_pay8 X5 (ix2 d o) = wrow 0 h0 X5 d o := by
  simp only [k0_pay8, pay6_eq]
  rw [truncf_apply, slice2_axis0_apply 0 X5 _ d o (brow 0 h0 d) rfl]
  rfl

theorem pay12_apply (X5 : Vec Ideal S128x1024 .f32) (d : Fin 64) (o : Fin 1024) :
    k0_pay12 (k0_pay6 X5) (ix2 d o) = wrow 64 h64 X5 d o := by
  simp only [k0_pay12, pay6_eq]
  rw [truncf_apply, slice2_axis0_apply 64 X5 _ d o (brow 64 h64 d) rfl]
  rfl

theorem pay9_apply (X0 : Vec Ideal S1x1024x1024 .f32) (X4 : Vec Ideal S128x1024 .f32) (m : Fin 1024) (d : Fin 64) :
    k0_pay9 X0 X4 (ix2 m d) = lin (xfun X0) (wrow 0 h0 X4) m d := by
  simp only [k0_pay9]
  rw [truncf_apply]
  refine (proj_apply 0 h0 (k0_pay4 X0) X4 _ _ _ m d).trans ?_
  simp only [pay4_apply]
  rfl

theorem pay13_apply (X0 : Vec Ideal S1x1024x1024 .f32) (X4 : Vec Ideal S128x1024 .f32) (m : Fin 1024) (d : Fin 64) :
    k0_pay13 (k0_pay4 X0) X4 (ix2 m d) = lin (xfun X0) (wrow 64 h64 X4) m d := by
  simp only [k0_pay13]
  rw [truncf_apply]
  refine (proj_apply 64 h64 (k0_pay4 X0) X4 _ _ _ m d).trans ?_
  simp only [pay4_apply]
  rfl

theorem pay10_apply (X0 : Vec Ideal S1x1024x1024 .f32) (X1 : Vec Ideal S1x1x1024x1024 .f32) (X2 X3 : Vec Ideal S128x1024 .f32)
    (n m : Fin 1024) :
    k0_pay10 X0 X1 X2 X3 (ix2 n m)
      = score (lin (xfun X0) (wrow 0 h0 X2)) (lin (xfun X0) (wrow 0 h0 X3)) (mkfun X1) n m := by
  simp only [k0_pay10]
  refine (scores_apply 0 h0 (k0_pay4 X0) (k0_pay5 X1) X2 X3 _ _ _ _ n m).trans ?_
  simp only [pay4_apply, pay5_apply]
  rfl

theorem pay14_apply (X0 : Vec Ideal S1x1024x1024 .f32) (X1 : Vec Ideal S1x1x1024x1024 .f32) (X2 X3 : Vec Ideal S128x1024 .f32)
    (n m : Fin 1024) :
    k0_pay14 (k0_pay4 X0) (k0_pay5 X1) X2 X3 (ix2 n m)
      = score (lin (xfun X0) (wrow 64 h64 X2)) (lin (xfun X0) (wrow 64 h64 X3)) (mkfun X1) n m := by
  simp only [k0_pay14]
  refine (scores_apply 64 h64 (k0_pay4 X0) (k0_pay5 X1) X2 X3 _ _ _ _ n m).trans ?_
  simp only [pay4_apply, pay5_apply]
  rfl

theorem pay11_apply (v20 : FVec Ideal S64x1024 .bf16) (v29 : FVec Ideal S1024x64 .bf16) (v34 : FVec Ideal S1024x1024 .f32)
    (v50 : Vec Ideal S1024x1024 .f32) (n o : Fin 1024) :
    k0_pay11 v20 v29 v34 v50 (ix2 n o)
      = v50 (ix2 n o) + ∑ d : Fin 64, ctx (prob (fun a b => v34 (ix2 a b))) (fun m d => v29 (ix2 m d)) n d * v20 (ix2 d o) := by
  simp only [k0_pay11]
  exact tail_apply v34 _ v29 v20 v50 (max_apply v34 _) _ _ _ _ _ n o

theorem pay1_apply (v62 : FVec Ideal S64x1024 .bf16) (v71 : FVec Ideal S1024x64 .bf16) (v2 : FVec Ideal S1024x1024 .bf16)
    (v4 : FVec Ideal S1024x1024 .f32) (v5 v6 : Vec Ideal S128x1024 .f32) (v92 : Vec Ideal S1024x1024 .f32) (n o : Fin 1024) :
    k0_pay1 v62 v71 (k0_pay14 v2 v4 v5 v6) (k0_pay15 v2 v4 v5 v6) (FloatOps.ofBits .f32 0xFF800000#32) v92 (ix2 n o)
      = v92 (ix2 n o) + ∑ d : Fin 64, ctx (prob (fun a b => k0_pay14 v2 v4 v5 v6 (ix2 a b))) (fun m d => v71 (ix2 m d)) n d * v62 (ix2 d o) := by
  simp only [k0_pay1, k0_pay15]
  exact tail_apply (k0_pay14 v2 v4 v5 v6) _ v71 v62 v92 (max_apply (k0_pay14 v2 v4 v5 v6) _) _ _ _ _ _ n o

theorem pay2_apply (v104 : Vec Ideal S1024x1024 .f32) (v105 : Vec Ideal S1024 .f32) (n o : Fin 1024) :
    k0_pay2 v104 v105 (ix2 n o) = v104 (ix2 n o) + v105 (ix1 o) := by
  simp only [k0_pay2]
  rw [shapeCast_self, addf_apply, broadcastTo_1b_ab_apply, shapeCast_a_1a_apply]

theorem pay3_apply (v100 : Vec Ideal S1024x1024 .f32) (u : Fin 1) (n o : Fin 1024) :
    k0_pay3 v100 (ix3 u n o) = v100 (ix2 n o) := by
  simp only [k0_pay3]
  exact shapeCast_ab_1ab_apply _ _ u n o

theorem pay7_apply (n o : Fin 1024) : (k0_pay7 (F := Ideal)) (ix2 n o) = 0 := by
  simp only [k0_pay7]
  rw [shapeCast_self, broadcast_apply]
  exact Ideal.ofBits_zero_f32

/-! ## One grid step: two heads added to the accumulator -/

section Step
variable {F : FTy → Type} [FloatOps F]

/-- What one grid step leaves in the accumulator that held `acc`: the block's first head added, then its second. -/
def step (x0 : Vec F S1x1024x1024 .f32) (x1 : Vec F S1x1x1024x1024 .f32) (x2 x3 x4 x5 : Vec F S128x1024 .f32)
    (acc : Vec F S1024x1024 .f32) : Vec F S1024x1024 .f32 :=
  k0_pay1 (k0_pay12 (k0_pay6 x5)) (k0_pay13 (k0_pay4 x0) x4) (k0_pay14 (k0_pay4 x0) (k0_pay5 x1) x2 x3)
    (k0_pay15 (k0_pay4 x0) (k0_pay5 x1) x2 x3) (FloatOps.ofBits .f32 0xFF800000#32)
    (k0_pay11 (k0_pay8 x5) (k0_pay9 x0 x4) (k0_pay10 x0 x1 x2 x3) acc)

end Step

/-- The two heads of a block, as the layer's contributions. -/
def pair (x0 : Vec Ideal S1x1024x1024 .f32) (x1 : Vec Ideal S1x1x1024x1024 .f32) (x2 x3 x4 x5 : Vec Ideal S128x1024 .f32)
    (off : ℕ) (hoff : off + 64 ≤ 128) (n o : Fin 1024) : EReal :=
  contrib (xfun x0) (mkfun x1) (wrow off hoff x2) (wrow off hoff x3) (wrow off hoff x4) (wrow off hoff x5) n o

theorem step_apply (x0 : Vec Ideal S1x1024x1024 .f32) (x1 : Vec Ideal S1x1x1024x1024 .f32) (x2 x3 x4 x5 : Vec Ideal S128x1024 .f32)
    (acc : Vec Ideal S1024x1024 .f32) (n o : Fin 1024) :
    step x0 x1 x2 x3 x4 x5 acc (ix2 n o)
      = (acc (ix2 n o) + pair x0 x1 x2 x3 x4 x5 0 h0 n o) + pair x0 x1 x2 x3 x4 x5 64 h64 n o := by
  unfold step
  rw [pay1_apply, pay11_apply]
  have hS0 : (fun a b => k0_pay10 x0 x1 x2 x3 (ix2 a b))
      = score (lin (xfun x0) (wrow 0 h0 x2)) (lin (xfun x0) (wrow 0 h0 x3)) (mkfun x1) :=
    funext fun a => funext fun b => pay10_apply x0 x1 x2 x3 a b
  have hV0 : (fun m d => k0_pay9 x0 x4 (ix2 m d)) = lin (xfun x0) (wrow 0 h0 x4) :=
    funext fun a => funext fun b => pay9_apply x0 x4 a b
  have hS1 : (fun a b => k0_pay14 (k0_pay4 x0) (k0_pay5 x1) x2 x3 (ix2 a b))
      = score (lin (xfun x0) (wrow 64 h64 x2)) (lin (xfun x0) (wrow 64 h64 x3)) (mkfun x1) :=
    funext fun a => funext fun b => pay14_apply x0 x1 x2 x3 a b
  have hV1 : (fun m d => k0_pay13 (k0_pay4 x0) x4 (ix2 m d)) = lin (xfun x0) (wrow 64 h64 x4) :=
    funext fun a => funext fun b => pay13_apply x0 x4 a b
  rw [hS0, hV0, hS1, hV1]
  simp only [pay8_apply, pay12_apply]
  rfl

end Cert.KernelIdeal.Head

end
-- ==== Proof.LibCoveredLoad.lean ====
/-
  A load of a whole buffer after a list of stores.

  When the last of a list of stores stored the whole buffer, a later load of the whole buffer reads that store's
  value, whatever the earlier stores were: the last store covers every index, and the contents a list of stores leaves
  are, index by index, the value of the latest store that holds the index. Generic in the shape, the element type and
  the values.
-/
import Idealize.ShloMosaic.Lib.Pipeline.Value

noncomputable section

namespace Cert.LibCoveredLoad

open Idealize.ShloMosaic

/-- A load of the whole buffer after a list of stores whose last one stored the whole buffer reads that store's value. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl, View.ld_unit_zero rfl]

end Cert.LibCoveredLoad

end
-- ==== Proof.KernelCases.lean ====
/-
  What each of the three control cases of the body leaves behind, as values. The accumulator is stored whole several
  times in one run of the body (cleared at the first step of a batch element, then once per head, then once more with the
  bias at the last step); only the last store matters, and each later store reads what the one before it left. So a
  first step leaves the two heads added to zero, a middle step leaves them added to what the step before left, the last
  step adds the bias row on top, and the output block is always a copy of what the accumulator ends with.
-/
import proofs.«113542_j3238405341580_1_alg».proof.Proof.Gen.KernelIdeal.Frame
import proofs.«113542_j3238405341580_1_alg».proof.Proof.KernelHead
import proofs.«113542_j3238405341580_1_alg».proof.Proof.LibCoveredLoad
import Idealize.ShloMosaic.Lib.Pipeline.Value
import Idealize.ShloMosaic.Lib.Tactic

noncomputable section

namespace Cert.KernelIdeal.Cases

open Cert.KernelIdeal Cert.KernelIdeal.Gen Cert.KernelIdeal.Head Idealize.ShloMosaic Idealize.ShloMosaic.TcCoe Idealize.SL.Sem

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A first step leaves the two heads added to the cleared accumulator. -/
theorem sout_A (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (hc0 : cond0_0 i) (hc1 : ¬cond0_1 i) (x0 : Vec F S1x1024x1024 .f32) (x1 : Vec F S1x1x1024x1024 .f32) (x2 : Vec F S128x1024 .f32) (x3 : Vec F S128x1024 .f32) (x4 : Vec F S128x1024 .f32) (x5 : Vec F S128x1024 .f32) (x6 : Vec F S1024 .f32) :
    sout0_A_0 c i arg2 harg2 arg3 harg3 arg4 harg4 arg5 harg5 arg6 harg6 arg7 harg7 arg8 harg8 arg9 harg9 arg10 harg10 hc0 hc1 x0 x1 x2 x3 x4 x5 x6 = step x0 x1 x2 x3 x4 x5 k0_pay7 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1024x1024) hz2]
  simp only [Cert.LibCoveredLoad.readCov_cons_unit_zero (S := S1024x1024) _ hz2, View.readAt_eq_ld, harg2.read_unread, harg3.read_unread, harg4.read_unread, harg5.read_unread,
    harg6.read_unread, harg7.read_unread, harg8.read_unread, harg10.read_unread,
    View.ld_unit_zero (S := S1024x1024) hz2, View.ld_unit_zero (S := S128x1024) hz2, View.ld_unit_zero (S := S1x1024x1024) hz3,
    View.ld_unit_zero (S := S1x1x1024x1024) hz4, View.ld_unit_zero (S := S1024) hz1]
  rfl

/-- A middle step leaves the two heads added to what the accumulator held. -/
theorem sout_B (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (hc0 : ¬cond0_0 i) (hc1 : ¬cond0_1 i) (x0 : Vec F S1x1024x1024 .f32) (x1 : Vec F S1x1x1024x1024 .f32) (x2 : Vec F S128x1024 .f32) (x3 : Vec F S128x1024 .f32) (x4 : Vec F S128x1024 .f32) (x5 : Vec F S128x1024 .f32) (x6 : Vec F S1024 .f32) (xs0 : Vec F S1024x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0 = step x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_cons_unit_zero (S := S1024x1024) hz2]
  simp only [Cert.LibCoveredLoad.readCov_cons_unit_zero (S := S1024x1024) _ hz2, View.readAt_eq_ld, harg2.read_unread, harg3.read_unread, harg4.read_unread, harg5.read_unread,
    harg6.read_unread, harg7.read_unread, harg8.read_unread, harg10.read_unread,
    View.ld_unit_zero (S := S1024x1024) hz2, View.ld_unit_zero (S := S128x1024) hz2, View.ld_unit_zero (S := S1x1024x1024) hz3,
    View.ld_unit_zero (S := S1x1x1024x1024) hz4, View.ld_unit_zero (S := S1024) hz1]
  rfl

/-- The last step adds the bias row on top. -/
theorem sout_C (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (hc0 : ¬cond0_0 i) (hc1 : cond0_1 i) (x0 : Vec F S1x1024x1024 .f32) (x1 : Vec F S1x1x1024x1024 .f32) (x2 : Vec F S128x1024 .f32) (x3 : Vec F S128x1024 .f32) (x4 : Vec F S128x1024 .f32) (x5 : Vec F S128x1024 .f32) (x6 : Vec F S1024 .f32) (xs0 : Vec F S1024x1024 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 (step x0 x1 x2 x3 x4 x5 xs0) x6 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_cons_unit_zero (S := S1024x1024) hz2]
  simp only [Cert.LibCoveredLoad.readCov_cons_unit_zero (S := S1024x1024) _ hz2, View.readAt_eq_ld, harg2.read_unread, harg3.read_unread, harg4.read_unread, harg5.read_unread,
    harg6.read_unread, harg7.read_unread, harg8.read_unread, harg10.read_unread,
    View.ld_unit_zero (S := S1024x1024) hz2, View.ld_unit_zero (S := S128x1024) hz2, View.ld_unit_zero (S := S1x1024x1024) hz3,
    View.ld_unit_zero (S := S1x1x1024x1024) hz4, View.ld_unit_zero (S := S1024) hz1]
  rfl

/-- The output block after a first step is a copy of the accumulator. -/
theorem out_A (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (hc0 : cond0_0 i) (hc1 : ¬cond0_1 i) (x0 : Vec F S1x1024x1024 .f32) (x1 : Vec F S1x1x1024x1024 .f32) (x2 : Vec F S128x1024 .f32) (x3 : Vec F S128x1024 .f32) (x4 : Vec F S128x1024 .f32) (x5 : Vec F S128x1024 .f32) (x6 : Vec F S1024 .f32) :
    out0_A_7 c i arg2 harg2 arg3 harg3 arg4 harg4 arg5 harg5 arg6 harg6 arg7 harg7 arg8 harg8 arg9 harg9 arg10 harg10 hc0 hc1 x0 x1 x2 x3 x4 x5 x6 = k0_pay3 (step x0 x1 x2 x3 x4 x5 k0_pay7) := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_unit_zero (S := S1x1024x1024) hz3]
  simp only [Cert.LibCoveredLoad.readCov_cons_unit_zero (S := S1024x1024) _ hz2, View.readAt_eq_ld, harg2.read_unread, harg3.read_unread, harg4.read_unread, harg5.read_unread,
    harg6.read_unread, harg7.read_unread, harg8.read_unread, harg10.read_unread,
    View.ld_unit_zero (S := S1024x1024) hz2, View.ld_unit_zero (S := S128x1024) hz2, View.ld_unit_zero (S := S1x1024x1024) hz3,
    View.ld_unit_zero (S := S1x1x1024x1024) hz4, View.ld_unit_zero (S := S1024) hz1]
  rfl

/-- The output block after a middle step is a copy of the accumulator. -/
theorem out_B (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (hc0 : ¬cond0_0 i) (hc1 : ¬cond0_1 i) (x0 : Vec F S1x1024x1024 .f32) (x1 : Vec F S1x1x1024x1024 .f32) (x2 : Vec F S128x1024 .f32) (x3 : Vec F S128x1024 .f32) (x4 : Vec F S128x1024 .f32) (x5 : Vec F S128x1024 .f32) (x6 : Vec F S1024 .f32) (xs0 : Vec F S1024x1024 .f32) :
    out0_B_7 c i arg2 harg2 arg3 harg3 arg4 harg4 arg5 harg5 arg6 harg6 arg7 harg7 arg8 harg8 arg9 harg9 arg10 harg10 hc0 hc1 x0 x1 x2 x3 x4 x5 x6 xs0 = k0_pay3 (step x0 x1 x2 x3 x4 x5 xs0) := by
  unfold out0_B_7
  rw [View.read_writes_eq_canon _ _ _ (cover0_B_7 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero (S := S1x1024x1024) hz3]
  simp only [Cert.LibCoveredLoad.readCov_cons_unit_zero (S := S1024x1024) _ hz2, View.readAt_eq_ld, harg2.read_unread, harg3.read_unread, harg4.read_unread, harg5.read_unread,
    harg6.read_unread, harg7.read_unread, harg8.read_unread, harg10.read_unread,
    View.ld_unit_zero (S := S1024x1024) hz2, View.ld_unit_zero (S := S128x1024) hz2, View.ld_unit_zero (S := S1x1024x1024) hz3,
    View.ld_unit_zero (S := S1x1x1024x1024) hz4, View.ld_unit_zero (S := S1024) hz1]
  rfl

/-- The output block after the last step is a copy of the accumulator, bias included. -/
theorem out_C (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (hc0 : ¬cond0_0 i) (hc1 : cond0_1 i) (x0 : Vec F S1x1024x1024 .f32) (x1 : Vec F S1x1x1024x1024 .f32) (x2 : Vec F S128x1024 .f32) (x3 : Vec F S128x1024 .f32) (x4 : Vec F S128x1024 .f32) (x5 : Vec F S128x1024 .f32) (x6 : Vec F S1024 .f32) (xs0 : Vec F S1024x1024 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 (k0_pay2 (step x0 x1 x2 x3 x4 x5 xs0) x6) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1x1024x1024) hz3]
  simp only [Cert.LibCoveredLoad.readCov_cons_unit_zero (S := S1024x1024) _ hz2, View.readAt_eq_ld, harg2.read_unread, harg3.read_unread, harg4.read_unread, harg5.read_unread,
    harg6.read_unread, harg7.read_unread, harg8.read_unread, harg10.read_unread,
    View.ld_unit_zero (S := S1024x1024) hz2, View.ld_unit_zero (S := S128x1024) hz2, View.ld_unit_zero (S := S1x1024x1024) hz3,
    View.ld_unit_zero (S := S1x1x1024x1024) hz4, View.ld_unit_zero (S := S1024) hz1]
  rfl

end Cert.KernelIdeal.Cases

end
-- ==== Proof.AttnLayer.lean ====
/-
  The whole layer over its seven argument arrays: entry (b, n, o) of the output is the sum of the sixteen heads'
  contributions for batch element b, token n, output channel o, plus the bias at o. Head h reads rows h*64 .. h*64+63
  of the three input projections and columns h*64 .. h*64+63 of the output projection.
-/
import proofs.«113542_j3238405341580_1_alg».proof.Proof.AttnSpec

noncomputable section

open scoped BigOperators

namespace Cert.Attn

open Idealize.ShloMosaic Idealize.ShloMosaic.ValueIdx

abbrev T3 : Type := (⟨3, ![4, 1024, 1024]⟩ : Shape).Idx → EReal
abbrev T4 : Type := (⟨4, ![4, 1, 1024, 1024]⟩ : Shape).Idx → EReal
abbrev T2 : Type := (⟨2, ![1024, 1024]⟩ : Shape).Idx → EReal
abbrev T1 : Type := (⟨1, ![1024]⟩ : Shape).Idx → EReal

/-- The token matrix of batch element b. -/
def xb (X : T3) (b : Fin 4) (n c : Fin 1024) : EReal := X (ix3 b n c)
/-- The mask of batch element b. -/
def mkb (MK : T4) (b : Fin 4) (n m : Fin 1024) : EReal := MK (ix4 b 0 n m)
/-- The 64 rows of a weight matrix that belong to head h. -/
def wh (W : T2) (h : ℕ) (d : Fin 64) (c : Fin 1024) : EReal := W (ix2 (hrow h d) c)
/-- The 64 columns of the output projection that belong to head h, as head-channel by output channel. -/
def wph (W : T2) (h : ℕ) (d : Fin 64) (o : Fin 1024) : EReal := W (ix2 o (hrow h d))

/-- Head h's contribution for batch element b. -/
def C (X : T3) (MK : T4) (WQ WK WV WP : T2) (b : Fin 4) (h : ℕ) (n o : Fin 1024) : EReal :=
  contrib (xb X b) (mkb MK b) (wh WQ h) (wh WK h) (wh WV h) (wph WP h) n o

/-- The layer at batch element b, token n, output channel o. -/
def layerAt (X : T3) (MK : T4) (WQ WK WV WP : T2) (BP : T1) (b : Fin 4) (n o : Fin 1024) : EReal :=
  (∑ h ∈ Finset.range 16, C X MK WQ WK WV WP b h n o) + BP (ix1 o)

/-- The layer as an array. -/
def layer (X : T3) (MK : T4) (WQ WK WV WP : T2) (BP : T1) : T3 :=
  fun i => layerAt X MK WQ WK WV WP BP (i 0) (i 1) (i 2)

theorem layer_apply (X : T3) (MK : T4) (WQ WK WV WP : T2) (BP : T1) (b : Fin 4) (n o : Fin 1024) :
    layer X MK WQ WK WV WP BP (ix3 b n o) = layerAt X MK WQ WK WV WP BP b n o := rfl

/-- Eight steps of two heads each, from zero, the bias added after the last: the layer. -/
theorem steps_eq (X : T3) (MK : T4) (WQ WK WV WP : T2) (BP : T1) (b : Fin 4) (n o : Fin 1024) :
    ((((0 : EReal) + ∑ s ∈ Finset.range 7, (C X MK WQ WK WV WP b (2 * s) n o + C X MK WQ WK WV WP b (2 * s + 1) n o))
        + C X MK WQ WK WV WP b 14 n o) + C X MK WQ WK WV WP b 15 n o) + BP (ix1 o)
      = layerAt X MK WQ WK WV WP BP b n o := by
  unfold layerAt
  rw [sum_pairs (fun h => C X MK WQ WK WV WP b h n o) 0, zero_add]

end Cert.Attn

end
-- ==== Proof.KernelStep.lean ====
/-
  One grid step against the layer: when a step's blocks are the token matrix and mask of batch element b and rows
  128 g .. 128 g + 127 of the projection matrices (columns of the output projection), the two heads the step adds to
  the accumulator are heads 2 g and 2 g + 1 of the layer for that batch element.
-/
import proofs.«113542_j3238405341580_1_alg».proof.Proof.KernelHead
import proofs.«113542_j3238405341580_1_alg».proof.Proof.AttnLayer

noncomputable section

open scoped BigOperators

namespace Cert.KernelIdeal.Head

open Cert.KernelIdeal Cert.KernelIdeal.Gen Idealize.ShloMosaic Idealize.ShloMosaic.ValueIdx Cert.Attn

/-- Row r of step g's weight block among the 1024 rows (total in g: wrapped, the identity for g < 8). -/
def grow (g : ℕ) (r : Fin 128) : Fin 1024 := ⟨(g * 128 + r.val) % 1024, Nat.mod_lt _ (by norm_num)⟩

theorem grow_brow (g : ℕ) (hg : g < 8) (off : ℕ) (hoff : off + 64 ≤ 128) (hh : off = 0 ∨ off = 64) (d : Fin 64) :
    grow g (brow off hoff d) = hrow (2 * g + off / 64) d := by
  have := d.isLt
  apply Fin.ext
  show (g * 128 + (off + d.val)) % 1024 = ((2 * g + off / 64) * 64 + d.val) % 1024
  rcases hh with rfl | rfl <;> omega

theorem pair_eq (x0 : Vec Ideal S1x1024x1024 .f32) (x1 : Vec Ideal S1x1x1024x1024 .f32) (x2 x3 x4 x5 : Vec Ideal S128x1024 .f32)
    (X : T3) (MK : T4) (WQ WK WV WP : T2) (b : Fin 4) (g : ℕ) (hg : g < 8)
    (hx0 : ∀ n k : Fin 1024, x0 (ix3 0 n k) = xb X b n k)
    (hx1 : ∀ n k : Fin 1024, x1 (ix4 0 0 n k) = mkb MK b n k)
    (hx2 : ∀ (r : Fin 128) (k : Fin 1024), x2 (ix2 r k) = WQ (ix2 (grow g r) k))
    (hx3 : ∀ (r : Fin 128) (k : Fin 1024), x3 (ix2 r k) = WK (ix2 (grow g r) k))
    (hx4 : ∀ (r : Fin 128) (k : Fin 1024), x4 (ix2 r k) = WV (ix2 (grow g r) k))
    (hx5 : ∀ (r : Fin 128) (k : Fin 1024), x5 (ix2 r k) = WP (ix2 k (grow g r)))
    (off : ℕ) (hoff : off + 64 ≤ 128) (hh : off = 0 ∨ off = 64) (n o : Fin 1024) :
    pair x0 x1 x2 x3 x4 x5 off hoff n o = C X MK WQ WK WV WP b (2 * g + off / 64) n o := by
  unfold pair C
  have e0 : xfun x0 = xb X b := funext fun n => funext fun k => hx0 n k
  have e1 : mkfun x1 = mkb MK b := funext fun n => funext fun k => hx1 n k
  have e2 : wrow off hoff x2 = wh WQ (2 * g + off / 64) := funext fun d => funext fun k => by
    show x2 (ix2 (brow off hoff d) k) = WQ (ix2 (hrow (2 * g + off / 64) d) k)
    rw [hx2, grow_brow g hg off hoff hh d]
  have e3 : wrow off hoff x3 = wh WK (2 * g + off / 64) := funext fun d => funext fun k => by
    show x3 (ix2 (brow off hoff d) k) = WK (ix2 (hrow (2 * g + off / 64) d) k)
    rw [hx3, grow_brow g hg off hoff hh d]
  have e4 : wrow off hoff x4 = wh WV (2 * g + off / 64) := funext fun d => funext fun k => by
    show x4 (ix2 (brow off hoff d) k) = WV (ix2 (hrow (2 * g + off / 64) d) k)
    rw [hx4, grow_brow g hg off hoff hh d]
  have e5 : wrow off hoff x5 = wph WP (2 * g + off / 64) := funext fun d => funext fun k => by
    show x5 (ix2 (brow off hoff d) k) = WP (ix2 k (hrow (2 * g + off / 64) d))
    rw [hx5, grow_brow g hg off hoff hh d]
  rw [e0, e1, e2, e3, e4, e5]

/-- THE STEP: what it leaves at an entry is what the accumulator held plus heads 2 g and 2 g + 1. -/
theorem step_point (x0 : Vec Ideal S1x1024x1024 .f32) (x1 : Vec Ideal S1x1x1024x1024 .f32) (x2 x3 x4 x5 : Vec Ideal S128x1024 .f32)
    (acc : Vec Ideal S1024x1024 .f32)
    (X : T3) (MK : T4) (WQ WK WV WP : T2) (b : Fin 4) (g : ℕ) (hg : g < 8)
    (hx0 : ∀ n k : Fin 1024, x0 (ix3 0 n k) = xb X b n k)
    (hx1 : ∀ n k : Fin 1024, x1 (ix4 0 0 n k) = mkb MK b n k)
    (hx2 : ∀ (r : Fin 128) (k : Fin 1024), x2 (ix2 r k) = WQ (ix2 (grow g r) k))
    (hx3 : ∀ (r : Fin 128) (k : Fin 1024), x3 (ix2 r k) = WK (ix2 (grow g r) k))
    (hx4 : ∀ (r : Fin 128) (k : Fin 1024), x4 (ix2 r k) = WV (ix2 (grow g r) k))
    (hx5 : ∀ (r : Fin 128) (k : Fin 1024), x5 (ix2 r k) = WP (ix2 k (grow g r)))
    (n o : Fin 1024) :
    step x0 x1 x2 x3 x4 x5 acc (ix2 n o)
      = (acc (ix2 n o) + C X MK WQ WK WV WP b (2 * g) n o) + C X MK WQ WK WV WP b (2 * g + 1) n o := by
  rw [step_apply, pair_eq x0 x1 x2 x3 x4 x5 X MK WQ WK WV WP b g hg hx0 hx1 hx2 hx3 hx4 hx5 0 h0 (Or.inl rfl),
    pair_eq x0 x1 x2 x3 x4 x5 X MK WQ WK WV WP b g hg hx0 hx1 hx2 hx3 hx4 hx5 64 h64 (Or.inr rfl)]
  rfl

end Cert.KernelIdeal.Head

end
-- ==== Proof.KernelPoint.lean ====
/-
  The blocks a grid point works on, read off the argument arrays. Point t of the 4 x 8 grid is batch element t / 8 and
  step t % 8: its token and mask blocks are those of the batch element, its four weight blocks are rows
  128 (t % 8) .. 128 (t % 8) + 127 of the three input projections and of the transposed output projection (so columns of
  the output projection itself), and its bias block is the whole bias. The block's two heads are therefore heads
  2 (t % 8) and 2 (t % 8) + 1 of the layer.
-/
import proofs.«113542_j3238405341580_1_alg».proof.Proof.KernelCases
import proofs.«113542_j3238405341580_1_alg».proof.Proof.KernelStep
import Idealize.ShloMosaic.Lib.ValueLayout
import proofs.«113542_j3238405341580_1_alg».proof.Proof.AttnLayer
import proofs.«113542_j3238405341580_1_alg».proof.Proof.Gen.KernelIdeal.Value
import Idealize.ShloMosaic.Lib.StableHlo.Run

noncomputable section

open scoped BigOperators

namespace Cert.KernelIdeal.Point

open Cert.KernelIdeal Cert.KernelIdeal.Gen Cert.KernelIdeal.Head Idealize.ShloMosaic Idealize.ShloMosaic.TcCoe Idealize.SL.Sem
open Idealize.ShloMosaic.ValueIdx Cert.Attn

variable (m : (ℓ : Loc nD τ sig) → Buf (Elt Ideal) ℓ)

/-- The printed index maps over the grid. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 4) = t.val / 8 ∧ win0_1.index t (1 : Fin 4) = 0 ∧ win0_1.index t (2 : Fin 4) = 0 ∧ win0_1.index t (3 : Fin 4) = 0
    ∧ win0_2.index t (0 : Fin 2) = t.val % 8 ∧ win0_2.index t (1 : Fin 2) = 0
    ∧ win0_3.index t (0 : Fin 2) = t.val % 8 ∧ win0_3.index t (1 : Fin 2) = 0
    ∧ win0_4.index t (0 : Fin 2) = t.val % 8 ∧ win0_4.index t (1 : Fin 2) = 0
    ∧ win0_5.index t (0 : Fin 2) = t.val % 8 ∧ win0_5.index t (1 : Fin 2) = 0
    ∧ win0_6.index t (0 : Fin 1) = 0
    ∧ win0_7.index t (0 : Fin 3) = t.val / 8 ∧ win0_7.index t (1 : Fin 3) = 0 ∧ win0_7.index t (2 : Fin 3) = 0 :=
  (by decide +kernel : ∀ t : Fin grid0.N, _)

/-- The batch element of a point. -/
def bat (p : ℕ) : Fin 4 := ⟨p / 8 % 4, Nat.mod_lt _ (by norm_num)⟩

variable (c : Dev nD)

/-- The arguments as plain arrays. -/
abbrev aX : T3 := m ((c : Thread nD τ).loc main_arg0)
abbrev aMK : T4 := m ((c : Thread nD τ).loc main_arg1)
abbrev aWQ : T2 := m ((c : Thread nD τ).loc main_arg2)
abbrev aWK : T2 := m ((c : Thread nD τ).loc main_arg3)
abbrev aWV : T2 := m ((c : Thread nD τ).loc main_arg4)
abbrev aWP : T2 := m ((c : Thread nD τ).loc main_arg5)
abbrev aBP : T1 := m ((c : Thread nD τ).loc main_arg6)

/-- The token block of a point. -/
theorem blk0 (t : Fin cfg0.N) (n k : Fin 1024) :
    (iblk m c 0 t : Vec Ideal S1x1024x1024 .f32) (ix3 0 n k) = xb (aX m c) (bat t.val) n k := by
  have hN : t.val < 32 := lt_of_lt_of_eq t.isLt (show cfg0.N = 32 from N_0)
  obtain ⟨e0, e1, e2, -⟩ := idx_facts t
  show V m c main_arg0 (((cfg0.win 0).blk t).view.emb (ix3 0 n k)) = _
  rw [V_main_arg0]
  unfold xb
  refine congrArg (m ((c : Thread nD τ).loc main_arg0)) (funext fun a => Fin.ext ?_)
  match a with
  | ⟨0, _⟩ => show win0_0.index t (0 : Fin 3) * 1 + 1 * 0 = t.val / 8 % 4; omega
  | ⟨1, _⟩ => show win0_0.index t (1 : Fin 3) * 1024 + 1 * n.val = n.val; omega
  | ⟨2, _⟩ => show win0_0.index t (2 : Fin 3) * 1024 + 1 * k.val = k.val; omega

/-- The mask block of a point. -/
theorem blk1 (t : Fin cfg0.N) (n k : Fin 1024) :
    (iblk m c 1 t : Vec Ideal S1x1x1024x1024 .f32) (ix4 0 0 n k) = mkb (aMK m c) (bat t.val) n k := by
  have hN : t.val < 32 := lt_of_lt_of_eq t.isLt (show cfg0.N = 32 from N_0)
  obtain ⟨-, -, -, e0, e1, e2, e3, -⟩ := idx_facts t
  show V m c main_arg1 (((cfg0.win 1).blk t).view.emb (ix4 0 0 n k)) = _
  rw [V_main_arg1]
  unfold mkb
  refine congrArg (m ((c : Thread nD τ).loc main_arg1)) (funext fun a => Fin.ext ?_)
  match a with
  | ⟨0, _⟩ => show win0_1.index t (0 : Fin 4) * 1 + 1 * 0 = t.val / 8 % 4; omega
  | ⟨1, _⟩ => show win0_1.index t (1 : Fin 4) * 1 + 1 * 0 = 0; omega
  | ⟨2, _⟩ => show win0_1.index t (2 : Fin 4) * 1024 + 1 * n.val = n.val; omega
  | ⟨3, _⟩ => show win0_1.index t (3 : Fin 4) * 1024 + 1 * k.val = k.val; omega

/-- The query-projection block of a point. -/
theorem blk2 (t : Fin cfg0.N) (r : Fin 128) (k : Fin 1024) :
    (iblk m c 2 t : Vec Ideal S128x1024 .f32) (ix2 r k) = aWQ m c (ix2 (grow (t.val % 8) r) k) := by
  have hr := r.isLt
  obtain ⟨-, -, -, -, -, -, -, e0, e1, -⟩ := idx_facts t
  show V m c main_arg2 (((cfg0.win 2).blk t).view.emb (ix2 r k)) = _
  rw [V_main_arg2]
  refine congrArg (m ((c : Thread nD τ).loc main_arg2)) (funext fun a => Fin.ext ?_)
  match a with
  | ⟨0, _⟩ => show win0_2.index t (0 : Fin 2) * 128 + 1 * r.val = (t.val % 8 * 128 + r.val) % 1024; omega
  | ⟨1, _⟩ => show win0_2.index t (1 : Fin 2) * 1024 + 1 * k.val = k.val; omega

/-- The key-projection block of a point. -/
theorem blk3 (t : Fin cfg0.N) (r : Fin 128) (k : Fin 1024) :
    (iblk m c 3 t : Vec Ideal S128x1024 .f32) (ix2 r k) = aWK m c (ix2 (grow (t.val % 8) r) k) := by
  have hr := r.isLt
  obtain ⟨-, -, -, -, -, -, -, -, -, e0, e1, -⟩ := idx_facts t
  show V m c main_arg3 (((cfg0.win 3).blk t).view.emb (ix2 r k)) = _
  rw [V_main_arg3]
  refine congrArg (m ((c : Thread nD τ).loc main_arg3)) (funext fun a => Fin.ext ?_)
  match a with
  | ⟨0, _⟩ => show win0_3.index t (0 : Fin 2) * 128 + 1 * r.val = (t.val % 8 * 128 + r.val) % 1024; omega
  | ⟨1, _⟩ => show win0_3.index t (1 : Fin 2) * 1024 + 1 * k.val = k.val; omega

/-- The value-projection block of a point. -/
theorem blk4 (t : Fin cfg0.N) (r : Fin 128) (k : Fin 1024) :
    (iblk m c 4 t : Vec Ideal S128x1024 .f32) (ix2 r k) = aWV m c (ix2 (grow (t.val % 8) r) k) := by
  have hr := r.isLt
  obtain ⟨-, -, -, -, -, -, -, -, -, -, -, e0, e1, -⟩ := idx_facts t
  show V m c main_arg4 (((cfg0.win 4).blk t).view.emb (ix2 r k)) = _
  rw [V_main_arg4]
  refine congrArg (m ((c : Thread nD τ).loc main_arg4)) (funext fun a => Fin.ext ?_)
  match a with
  | ⟨0, _⟩ => show win0_4.index t (0 : Fin 2) * 128 + 1 * r.val = (t.val % 8 * 128 + r.val) % 1024; omega
  | ⟨1, _⟩ => show win0_4.index t (1 : Fin 2) * 1024 + 1 * k.val = k.val; omega

/-- The array the host transposes before the call: the output projection with rows and columns exchanged. -/
theorem V_v0 (i j : Fin 1024) :
    (V m c main_v0 : S1024x1024.Idx → EReal) (ix2 i j) = aWP m c (ix2 j i) := by
  have e : (V m c main_v0 : S1024x1024.Idx → EReal)
      = transpose S1024x1024 [1, 0] (m ((c : Thread nD τ).loc main_arg5)) Facts₀.transposes_S1024x1024_S1024x1024_1_0 := by
    dsimp only [V, hostOps0]; after_results
  rw [e, transpose_ix2_apply]

/-- The output-projection block of a point: rows of the transposed matrix, so columns of the matrix itself. -/
theorem blk5 (t : Fin cfg0.N) (r : Fin 128) (k : Fin 1024) :
    (iblk m c 5 t : Vec Ideal S128x1024 .f32) (ix2 r k) = aWP m c (ix2 k (grow (t.val % 8) r)) := by
  have hr := r.isLt
  obtain ⟨-, -, -, -, -, -, -, -, -, -, -, -, -, e0, e1, -⟩ := idx_facts t
  show V m c main_v0 (((cfg0.win 5).blk t).view.emb (ix2 r k)) = _
  have hemb : ((cfg0.win 5).blk t).view.emb (ix2 r k) = ix2 (grow (t.val % 8) r) k := by
    funext a
    apply Fin.ext
    match a with
    | ⟨0, _⟩ => show win0_5.index t (0 : Fin 2) * 128 + 1 * r.val = (t.val % 8 * 128 + r.val) % 1024; omega
    | ⟨1, _⟩ => show win0_5.index t (1 : Fin 2) * 1024 + 1 * k.val = k.val; omega
  rw [hemb]
  exact V_v0 m c _ _

/-- The bias block of a point: the whole bias. -/
theorem blk6 (t : Fin cfg0.N) (o : Fin 1024) :
    (iblk m c 6 t : Vec Ideal S1024 .f32) (ix1 o) = aBP m c (ix1 o) := by
  obtain ⟨-, -, -, -, -, -, -, -, -, -, -, -, -, -, -, e0, -⟩ := idx_facts t
  show V m c main_arg6 (((cfg0.win 6).blk t).view.emb (ix1 o)) = _
  rw [V_main_arg6]
  refine congrArg (m ((c : Thread nD τ).loc main_arg6)) (funext fun a => Fin.ext ?_)
  match a with
  | ⟨0, _⟩ => show win0_6.index t (0 : Fin 1) * 1024 + 1 * o.val = o.val; omega

end Cert.KernelIdeal.Point

end
-- ==== Proof.KernelValue.lean ====
/-
  The kernel's result array. Within a batch element the accumulator is cleared at step 0 and gains two heads per step,
  so after step j < 7 it holds heads 0 .. 2 j + 1 added from zero in step order; step 7 adds the last two heads and then
  the bias, and its output block, the only one written back for the batch element, is a copy of that. The four
  write-backs cover the array, which therefore ends holding the layer of the argument arrays.
-/
import proofs.«113542_j3238405341580_1_alg».proof.Proof.KernelPoint

noncomputable section

open scoped BigOperators

namespace Cert.KernelIdeal.AttnValue

open Cert.KernelIdeal Cert.KernelIdeal.Gen Cert.KernelIdeal.Head Cert.KernelIdeal.Point Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (c : Dev nD)

/-- The two heads point p adds, at an entry. -/
def gain (p : ℕ) (n o : Fin 1024) : EReal :=
  C (aX m c) (aMK m c) (aWQ m c) (aWK m c) (aWV m c) (aWP m c) (bat p) (2 * (p % 8)) n o
    + C (aX m c) (aMK m c) (aWQ m c) (aWK m c) (aWV m c) (aWP m c) (bat p) (2 * (p % 8) + 1) n o

/-- The same as a function of the accumulator's index. -/
def gainAt (p : ℕ) (i : S1024x1024.Idx) : EReal := gain m c p (i 0) (i 1)

/-- What a step leaves at an entry of the accumulator that held `acc`, at any point. -/
theorem step_at (t : Fin cfg0.N) (acc : Vec Ideal S1024x1024 .f32) (i : S1024x1024.Idx) :
    step (iblk m c 0 t) (iblk m c 1 t) (iblk m c 2 t) (iblk m c 3 t) (iblk m c 4 t) (iblk m c 5 t) acc i
      = acc i + gainAt m c t.val i := by
  obtain ⟨n, o, rfl⟩ : ∃ n o : Fin 1024, i = ix2 n o := ⟨i 0, i 1, eq_ix2 i⟩
  refine (step_point (iblk m c 0 t) (iblk m c 1 t) (iblk m c 2 t) (iblk m c 3 t) (iblk m c 4 t) (iblk m c 5 t) acc
    (aX m c) (aMK m c) (aWQ m c) (aWK m c) (aWV m c) (aWP m c) (bat t.val) (t.val % 8) (Nat.mod_lt _ (by norm_num))
    (blk0 m c t) (blk1 m c t) (blk2 m c t) (blk3 m c t) (blk4 m c t) (blk5 m c t) n o).trans ?_
  exact add_assoc _ _ _

/-- THE ACCUMULATOR after step j ≤ 6 of a batch element: the gains of steps 0 .. j added from zero. -/
theorem acc_eq (t : Fin cfg0.N) (h6 : t.val % 8 ≤ 6) (i : S1024x1024.Idx) :
    (outsAt0 m c t.val t.isLt).2 i
      = 0 + ∑ s ∈ Finset.range (t.val % 8 + 1), gainAt m c (8 * (t.val / 8) + s) i := by
  have hN : cfg0.N = 32 := N_0
  rw [Value.soutsAt0_0_eq m c t]
  refine Pipeline.accAt_add_apply (ι := S1024x1024.Idx) (β := EReal) _ _ (fun _ => (0 : EReal)) (gainAt m c) (8 * (t.val / 8)) 6 ?_ ?_
    (t.val % 8) h6 _ i
  · intro h i
    have h0 : (8 * (t.val / 8)) % 8 = 0 := by omega
    have h1 : ¬(8 * (t.val / 8)) % 8 = 7 := by omega
    unfold Value.scAt0_0
    rw [dif_pos h0, dif_neg h1, Cases.sout_A]
    refine (step_at m c ⟨8 * (t.val / 8), h⟩ _ i).trans ?_
    obtain ⟨n, o, rfl⟩ : ∃ n o : Fin 1024, i = ix2 n o := ⟨i 0, i 1, eq_ix2 i⟩
    rw [pay7_apply]
  · intro n h acc i hb he
    have h0 : ¬n % 8 = 0 := by omega
    have h1 : ¬n % 8 = 7 := by omega
    unfold Value.scAt0_0
    rw [dif_neg h0, dif_neg h1, Cases.sout_B]
    exact step_at m c ⟨n, h⟩ acc i

/-- The gain of step s of the batch element that starts at point 8 q. -/
theorem gain_step (q s : ℕ) (hs : s < 8) (n o : Fin 1024) :
    gain m c (8 * q + s) n o = C (aX m c) (aMK m c) (aWQ m c) (aWK m c) (aWV m c) (aWP m c) (bat (8 * q)) (2 * s) n o + C (aX m c) (aMK m c) (aWQ m c) (aWK m c) (aWV m c) (aWP m c) (bat (8 * q)) (2 * s + 1) n o := by
  unfold gain
  have hb : bat (8 * q + s) = bat (8 * q) := Fin.ext (by show (8 * q + s) / 8 % 4 = 8 * q / 8 % 4; omega)
  have hm : (8 * q + s) % 8 = s := by omega
  rw [hb, hm]

/-- The slab of the result array that a point's output block is. -/
theorem emb7 (t : Fin cfg0.N) (u : Fin 1) (n o : Fin 1024) :
    ((cfg0.win 7).blk t).view.emb (ix3 u n o) = ix3 (bat t.val) n o := by
  have hN : t.val < 32 := lt_of_lt_of_eq t.isLt (show cfg0.N = 32 from N_0)
  have hu := u.isLt
  obtain ⟨-, -, -, -, -, -, -, -, -, -, -, -, -, -, -, -, e0, e1, e2⟩ := idx_facts t
  funext a
  apply Fin.ext
  match a with
  | ⟨0, _⟩ => show win0_7.index t (0 : Fin 3) * 1 + 1 * u.val = t.val / 8 % 4; omega
  | ⟨1, _⟩ => show win0_7.index t (1 : Fin 3) * 1024 + 1 * n.val = n.val; omega
  | ⟨2, _⟩ => show win0_7.index t (2 : Fin 3) * 1024 + 1 * o.val = o.val; omega

/-- WHAT A WRITE-BACK WRITES: at the last step of a batch element, that element's slab of the layer. -/
theorem flushed_eq (t : Fin cfg0.N) (hf : (cfg0.win 7).flush t = true) :
    (dats m 0 c).flushed 7 t = ((cfg0.win 7).blk t).view.read (Elt Ideal) (layer (aX m c) (aMK m c) (aWQ m c) (aWK m c) (aWV m c) (aWP m c) (aBP m c)) := by
  have hN : cfg0.N = 32 := N_0
  have ht := t.isLt
  have h7 : t.val % 8 = 7 := (flush0_7 t).mp hf
  have h0 : ¬t.val % 8 = 0 := by omega
  rw [Value.flushed7_C m c t h0 h7, Cases.out_C]
  funext y
  obtain ⟨u, n, o, rfl⟩ : ∃ (u : Fin 1) (n o : Fin 1024), y = ix3 u n o := ⟨y 0, y 1, y 2, eq_ix3 y⟩
  show k0_pay3 (k0_pay2 (step (iblk m c 0 t) (iblk m c 1 t) (iblk m c 2 t) (iblk m c 3 t) (iblk m c 4 t) (iblk m c 5 t)
      (outsAt0 m c (t.val - 1) (Nat.lt_of_le_of_lt (Nat.sub_le _ _) t.isLt)).2) (iblk m c 6 t)) (ix3 u n o)
    = layer (aX m c) (aMK m c) (aWQ m c) (aWK m c) (aWV m c) (aWP m c) (aBP m c) (((cfg0.win 7).blk t).view.emb (ix3 u n o))
  rw [emb7 t u n o, layer_apply, pay3_apply, pay2_apply, step_at, blk6]
  have hacc := acc_eq m c ⟨t.val - 1, Nat.lt_of_le_of_lt (Nat.sub_le _ _) t.isLt⟩ (by show (t.val - 1) % 8 ≤ 6; omega) (ix2 n o)
  refine (congrArg (fun a => a + gainAt m c t.val (ix2 n o) + aBP m c (ix1 o)) hacc).trans ?_
  obtain ⟨q, hq⟩ : ∃ q, t.val = 8 * q + 7 := ⟨t.val / 8, by omega⟩
  have e7 : (t.val - 1) % 8 + 1 = 7 := by omega
  have e8 : 8 * ((t.val - 1) / 8) = 8 * q := by omega
  have eb : bat (8 * q + 7) = bat (8 * q) := Fin.ext (by show (8 * q + 7) / 8 % 4 = 8 * q / 8 % 4; omega)
  show (0 + ∑ s ∈ Finset.range ((t.val - 1) % 8 + 1), gain m c (8 * ((t.val - 1) / 8) + s) n o) + gain m c t.val n o + aBP m c (ix1 o) = _
  rw [e7, e8, hq, gain_step m c q 7 (by norm_num) n o, eb, ← steps_eq, Finset.sum_congr rfl fun s hs => gain_step m c q s (by have := Finset.mem_range.mp hs; omega) n o]
  exact congrArg (· + aBP m c (ix1 o)) (add_assoc _ _ _).symm

/-- An index of the result array is in a point's block iff each coordinate is in the block's range on its axis. -/
theorem mem_blk7 (t : Fin cfg0.N) (i : S4x1024x1024.Idx) :
    i ∈ ((cfg0.win 7).blk t).view.set ↔ ∀ a : Fin 3, win0_7.index t a * S1x1024x1024.size a ≤ (i a).val ∧ (i a).val < win0_7.index t a * S1x1024x1024.size a + S1x1024x1024.size a := by
  show i ∈ ((View.whole main_v1).slice (win0_7.rect t)).set ↔ _
  rw [View.set_slice_whole, Rect.mem_set_unit]
  exact Iff.rfl

/-- Every index of the result array is written back by the last step of its batch element. -/
theorem cover (i : S4x1024x1024.Idx) :
    ∃ t : Fin cfg0.N, (cfg0.win 7).flush t = true ∧ i ∈ ((cfg0.win 7).blk t).view.set := by
  have hN : cfg0.N = 32 := N_0
  have hi0 : (i 0).val < 4 := (i 0).isLt
  have hi1 : (i 1).val < 1024 := (i 1).isLt
  have hi2 : (i 2).val < 1024 := (i 2).isLt
  have hlt : 8 * (i 0).val + 7 < cfg0.N := by rw [hN]; omega
  refine ⟨⟨8 * (i 0).val + 7, hlt⟩, (flush0_7 _).mpr (by show (8 * (i 0).val + 7) % 8 = 7; omega), ?_⟩
  rw [mem_blk7]
  obtain ⟨-, -, -, -, -, -, -, -, -, -, -, -, -, -, -, -, e0, e1, e2⟩ := idx_facts ⟨8 * (i 0).val + 7, hlt⟩
  have e0' : win0_7.index ⟨8 * (i 0).val + 7, hlt⟩ (0 : Fin 3) = (8 * (i 0).val + 7) / 8 := e0
  intro a
  match a with
  | ⟨0, _⟩ => show win0_7.index ⟨8 * (i 0).val + 7, hlt⟩ (0 : Fin 3) * 1 ≤ (i 0).val ∧ (i 0).val < win0_7.index ⟨8 * (i 0).val + 7, hlt⟩ (0 : Fin 3) * 1 + 1; omega
  | ⟨1, _⟩ => show win0_7.index ⟨8 * (i 0).val + 7, hlt⟩ (1 : Fin 3) * 1024 ≤ (i 1).val ∧ (i 1).val < win0_7.index ⟨8 * (i 0).val + 7, hlt⟩ (1 : Fin 3) * 1024 + 1024; omega
  | ⟨2, _⟩ => show win0_7.index ⟨8 * (i 0).val + 7, hlt⟩ (2 : Fin 3) * 1024 ≤ (i 2).val ∧ (i 2).val < win0_7.index ⟨8 * (i 0).val + 7, hlt⟩ (2 : Fin 3) * 1024 + 1024; omega

/-- THE RESULT ARRAY after the run is the layer of the argument arrays. -/
theorem final : (dats m 0 c).arrAt 7 cfg0.N = layer (aX m c) (aMK m c) (aWQ m c) (aWK m c) (aWV m c) (aWP m c) (aBP m c) :=
  (dats m 0 c).arrAt_eq_of_cover 7 (layer (aX m c) (aMK m c) (aWQ m c) (aWK m c) (aWV m c) (aWP m c) (aBP m c)) (fun t hf => flushed_eq m c t hf) cover

/-- The kernel's run, read: the result array at the layer of the argument arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = layer (aX m c) (aMK m c) (aWQ m c) (aWK m c) (aWV m c) (aWP m c) (aBP m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.AttnValue

end
-- ==== Proof.RefAttn.lean ====
/-
  The reference, entry by entry: its straight line of host operations computes, for batch element b, token n and
  output channel o, the sum over all 1024 channels of the heads' outputs laid side by side, against row o of the output
  projection, plus the bias. The three input projections are taken for all heads at once and cut into heads by a
  reshape and a transpose (channel h*64+d of token n becomes entry (h, n, d)); the softmax is taken along the last axis
  of the [batch, head, token, token] scores; the heads' outputs are laid back side by side by the inverse transpose
  and reshape.
-/
import proofs.«113542_j3238405341580_1_alg».proof.Proof.Gen.ReferenceIdeal.Read
import proofs.«113542_j3238405341580_1_alg».proof.Proof.AttnLayer
import Idealize.ShloMosaic.Lib.ValueIdx
import Idealize.ShloMosaic.PureOps.Ideal.Laws

noncomputable section

open scoped BigOperators

namespace Cert.ReferenceIdeal.AttnRead

open Cert.ReferenceIdeal Cert.ReferenceIdeal.Gen Cert.ReferenceIdeal.Read Idealize.ShloMosaic Idealize.ShloMosaic.ValueIdx Cert.Attn

abbrev A3 : Type := (⟨S4x1024x1024, .f32⟩ : BufTy).Contents (Elt Ideal)
abbrev A4 : Type := (⟨S4x1x1024x1024, .f32⟩ : BufTy).Contents (Elt Ideal)
abbrev A2 : Type := (⟨S1024x1024, .f32⟩ : BufTy).Contents (Elt Ideal)
abbrev A1 : Type := (⟨S1024, .f32⟩ : BufTy).Contents (Elt Ideal)

variable (X : A3) (MK : A4) (WQ WK WV WP : A2) (BP : A1)

/-- A projection for all heads at once, at a head's channel. -/
theorem proj_apply (W : A2) (b : Fin 4) (h : Fin 16) (n : Fin 1024) (d : Fin 64) :
    val_main_v0 (F := Ideal) X W (ix3 b n (hrow h.val d)) = lin (xb X b) (wh W h.val) n d := by
  rw [val_main_v0_apply]
  unfold lin
  refine Finset.sum_congr rfl fun k _ => ?_
  have el : lidx_main_v0 (ix3 b n (hrow h.val d)) k = ix3 b n k := by
    funext a; match a with | ⟨0, _⟩ => rfl | ⟨1, _⟩ => rfl | ⟨2, _⟩ => rfl
  have er : ridx_main_v0 (ix3 b n (hrow h.val d)) k = ix2 (hrow h.val d) k := by
    funext a; match a with | ⟨0, _⟩ => rfl | ⟨1, _⟩ => rfl
  rw [el, er]
  rfl

theorem heads_idx (b : Fin 4) (h : Fin 16) (n : Fin 1024) (d : Fin 64) :
    idx_main_v1 (idx_main_v2 (ix4 b h n d)) = ix3 b n (hrow h.val d) := by
  have hb := b.isLt; have hh := h.isLt; have hn := n.isLt; have hd := d.isLt
  funext a
  apply Fin.ext
  match a with
  | ⟨0, _⟩ => show (((b.val * 1024 + n.val) * 16 + h.val) * 64 + d.val) / 1048576 = b.val; omega
  | ⟨1, _⟩ => show (((b.val * 1024 + n.val) * 16 + h.val) * 64 + d.val) / 1024 % 1024 = n.val; omega
  | ⟨2, _⟩ => show (((b.val * 1024 + n.val) * 16 + h.val) * 64 + d.val) % 1024 = (h.val * 64 + d.val) % 1024; omega

/-- Queries (and likewise keys and values) of head h. -/
theorem q_apply (W : A2) (b : Fin 4) (h : Fin 16) (n : Fin 1024) (d : Fin 64) :
    val_main_v2 (F := Ideal) X W (ix4 b h n d) = lin (xb X b) (wh W h.val) n d := by
  rw [val_main_v2_apply, val_main_v1_apply, heads_idx, proj_apply]

theorem k_eq (W : A2) : val_main_v5 (F := Ideal) X W = val_main_v2 (F := Ideal) X W := rfl
theorem v_eq (W : A2) : val_main_v8 (F := Ideal) X W = val_main_v2 (F := Ideal) X W := rfl

/-- The scores of head h of batch element b. -/
def S (b : Fin 4) (h : ℕ) : Fin 1024 → Fin 1024 → EReal :=
  score (lin (xb X b) (wh WQ h)) (lin (xb X b) (wh WK h)) (mkb MK b)

theorem s_apply (b : Fin 4) (h : Fin 16) (n m : Fin 1024) :
    val_main_v13 (F := Ideal) X MK WQ WK (ix4 b h n m) = S X MK WQ WK b h.val n m := by
  rw [val_main_v13_apply, val_main_v11_apply, val_main_v9_apply, val_main_v10_apply, val_main_cst_apply, val_main_v12_apply, k_eq]
  have e12 : idx_main_v12 (ix4 b h n m) = ix4 b 0 n m := by
    funext a; match a with | ⟨0, _⟩ => rfl | ⟨1, _⟩ => rfl | ⟨2, _⟩ => rfl | ⟨3, _⟩ => rfl
  rw [e12]
  unfold S score
  refine congrArg₂ (· + ·) (congrArg (· * eighth) (Finset.sum_congr rfl fun k _ => ?_)) rfl
  have el : lidx_main_v9 (ix4 b h n m) k = ix4 b h n k := by
    funext a; match a with | ⟨0, _⟩ => rfl | ⟨1, _⟩ => rfl | ⟨2, _⟩ => rfl | ⟨3, _⟩ => rfl
  have er : ridx_main_v9 (ix4 b h n m) k = ix4 b h m k := by
    funext a; match a with | ⟨0, _⟩ => rfl | ⟨1, _⟩ => rfl | ⟨2, _⟩ => rfl | ⟨3, _⟩ => rfl
  rw [el, er]
  exact congrArg₂ (· * ·) (q_apply X WQ b h n k) (q_apply X WK b h m k)

theorem hred3 : S4x16x1024x1024.Reduces [3] S4x16x1024 := by decide

theorem lift3 (b : Fin 4) (h : Fin 16) (n k : Fin 1024) : hred3.lift (ix3 b h n) k = ix4 b h n k := by
  funext a; apply Fin.ext; match a with | ⟨0, _⟩ => rfl | ⟨1, _⟩ => rfl | ⟨2, _⟩ => rfl | ⟨3, _⟩ => rfl

/-- The row maxima. -/
theorem max_apply (b : Fin 4) (h : Fin 16) (n : Fin 1024) :
    val_main_v16 (F := Ideal) X MK WQ WK (ix3 b h n) = rowMax (S X MK WQ WK b h.val) n := by
  rw [val_main_v16_apply, val_main_v15_apply, val_main_cst_1_apply]
  unfold rowMax
  refine congrArg (max _) ?_
  unfold val_main_v14
  refine (Host.reduce_eq_fold_single (FloatOps.maximumf (F := Ideal) (φ := .f32)) _ _ _ hred3 _ (ix3 b h n)).trans ?_
  refine congrArg (fun f => Finset.fold max negInf f Finset.univ) (funext fun (k : Fin 1024) => ?_)
  exact (congrArg (val_main_v13 (F := Ideal) X MK WQ WK) (lift3 b h n k)).trans (s_apply X MK WQ WK b h n k)

/-- The shifted exponentials. -/
theorem e_apply (b : Fin 4) (h : Fin 16) (n m : Fin 1024) :
    val_main_v20 (F := Ideal) X MK WQ WK (ix4 b h n m) = ex (S X MK WQ WK b h.val) n m := by
  rw [val_main_v20_apply, val_main_v19_apply, val_main_v18_apply, val_main_v17_apply]
  have e1 : idx_main_v17 (idx_main_v18 (ix4 b h n m)) = ix3 b h n := by
    funext a; match a with | ⟨0, _⟩ => rfl | ⟨1, _⟩ => rfl | ⟨2, _⟩ => rfl
  rw [e1, max_apply, s_apply]
  rfl

/-- The row sums. -/
theorem z_apply (b : Fin 4) (h : Fin 16) (n : Fin 1024) :
    val_main_v21 (F := Ideal) X MK WQ WK (ix3 b h n) = ∑ m : Fin 1024, ex (S X MK WQ WK b h.val) n m := by
  rw [val_main_v21_apply, val_main_cst_2_apply]
  show Ideal.ofBits .f32 0x00000000#32 + _ = _
  rw [Ideal.ofBits_zero_f32, zero_add]
  refine Finset.sum_congr rfl fun k _ => ?_
  have e1 : idx_main_v21 (ix3 b h n) k = ix4 b h n k := by
    funext a; match a with | ⟨0, _⟩ => rfl | ⟨1, _⟩ => rfl | ⟨2, _⟩ => rfl | ⟨3, _⟩ => rfl
  rw [e1, e_apply]

/-- The softmax weights. -/
theorem p_apply (b : Fin 4) (h : Fin 16) (n m : Fin 1024) :
    val_main_v24 (F := Ideal) X MK WQ WK (ix4 b h n m) = prob (S X MK WQ WK b h.val) n m := by
  rw [val_main_v24_apply, val_main_v23_apply, val_main_v22_apply]
  have e1 : idx_main_v22 (idx_main_v23 (ix4 b h n m)) = ix3 b h n := by
    funext a; match a with | ⟨0, _⟩ => rfl | ⟨1, _⟩ => rfl | ⟨2, _⟩ => rfl
  rw [e1, z_apply, e_apply]
  rfl

/-- The heads' outputs. -/
theorem head_apply (b : Fin 4) (h : Fin 16) (n : Fin 1024) (d : Fin 64) :
    val_main_v25 (F := Ideal) X MK WQ WK WV (ix4 b h n d)
      = head (xb X b) (mkb MK b) (wh WQ h.val) (wh WK h.val) (wh WV h.val) n d := by
  rw [val_main_v25_apply, v_eq]
  unfold head ctx
  refine Finset.sum_congr rfl fun k _ => ?_
  have el : lidx_main_v25 (ix4 b h n d) k = ix4 b h n k := by
    funext a; match a with | ⟨0, _⟩ => rfl | ⟨1, _⟩ => rfl | ⟨2, _⟩ => rfl | ⟨3, _⟩ => rfl
  have er : ridx_main_v25 (ix4 b h n d) k = ix4 b h k d := by
    funext a; match a with | ⟨0, _⟩ => rfl | ⟨1, _⟩ => rfl | ⟨2, _⟩ => rfl | ⟨3, _⟩ => rfl
  rw [el, er, p_apply, q_apply]
  rfl

theorem merge_idx (b : Fin 4) (h : Fin 16) (n : Fin 1024) (d : Fin 64) :
    idx_main_v26 (idx_main_v27 (ix3 b n (hrow h.val d))) = ix4 b h n d := by
  have hb := b.isLt; have hh := h.isLt; have hn := n.isLt; have hd := d.isLt
  have hr : (hrow h.val d).val = h.val * 64 + d.val := hrow_val hh d
  funext a
  apply Fin.ext
  match a with
  | ⟨0, _⟩ => show ((b.val * 1024 + n.val) * 1024 + (hrow h.val d).val) / 1048576 = b.val; omega
  | ⟨1, _⟩ => show ((b.val * 1024 + n.val) * 1024 + (hrow h.val d).val) / 64 % 16 = h.val; omega
  | ⟨2, _⟩ => show ((b.val * 1024 + n.val) * 1024 + (hrow h.val d).val) / 1024 % 1024 = n.val; omega
  | ⟨3, _⟩ => show ((b.val * 1024 + n.val) * 1024 + (hrow h.val d).val) % 64 = d.val; omega

/-- The heads' outputs laid side by side: channel h*64+d of token n. -/
theorem merged_apply (b : Fin 4) (h : Fin 16) (n : Fin 1024) (d : Fin 64) :
    val_main_v27 (F := Ideal) X MK WQ WK WV (ix3 b n (hrow h.val d))
      = head (xb X b) (mkb MK b) (wh WQ h.val) (wh WK h.val) (wh WV h.val) n d := by
  rw [val_main_v27_apply, val_main_v26_apply, merge_idx, head_apply]

/-- THE REFERENCE AT AN ENTRY: the sixteen heads' contributions, summed, plus the bias. -/
theorem out_apply (b : Fin 4) (n o : Fin 1024) :
    val_main_v31 (F := Ideal) X MK WQ WK WV WP BP (ix3 b n o)
      = (∑ h ∈ Finset.range 16, contrib (xb X b) (mkb MK b) (wh WQ h) (wh WK h) (wh WV h) (wph WP h) n o) + BP (ix1 o) := by
  rw [val_main_v31_apply, val_main_v30_apply, val_main_v29_apply, val_main_v28_apply]
  have e30 : idx_main_v29 (idx_main_v30 (ix3 b n o)) = ix1 o := by
    funext a; match a with | ⟨0, _⟩ => rfl
  rw [e30]
  refine congrArg (· + BP (ix1 o)) ?_
  have hk : ∀ k : Fin 1024, val_main_v27 (F := Ideal) X MK WQ WK WV (lidx_main_v28 (ix3 b n o) k) * WP (ridx_main_v28 (ix3 b n o) k)
      = val_main_v27 (F := Ideal) X MK WQ WK WV (ix3 b n k) * WP (ix2 o k) := fun k => by
    have el : lidx_main_v28 (ix3 b n o) k = ix3 b n k := by
      funext a; match a with | ⟨0, _⟩ => rfl | ⟨1, _⟩ => rfl | ⟨2, _⟩ => rfl
    have er : ridx_main_v28 (ix3 b n o) k = ix2 o k := by
      funext a; match a with | ⟨0, _⟩ => rfl | ⟨1, _⟩ => rfl
    rw [el, er]
  rw [Finset.sum_congr rfl fun k _ => hk k, sum_channels]
  refine Finset.sum_congr rfl fun h hh => ?_
  have hlt : h < 16 := Finset.mem_range.mp hh
  unfold contrib
  refine Finset.sum_congr rfl fun d _ => ?_
  rw [merged_apply X MK WQ WK WV b ⟨h, hlt⟩ n d]
  rfl

/-- The reference's result array is the layer of its argument arrays. -/
theorem ref_eq : val_main_v31 (F := Ideal) X MK WQ WK WV WP BP = layer X MK WQ WK WV WP BP := by
  funext i
  obtain ⟨b, n, o, rfl⟩ : ∃ (b : Fin 4) (n o : Fin 1024), i = ix3 b n o := ⟨i 0, i 1, i 2, eq_ix3 i⟩
  rw [out_apply, layer_apply]
  rfl

end Cert.ReferenceIdeal.AttnRead

end
-- ==== Proof.lean ====
/-
  A fused multi-head self-attention kernel against its jnp reference, over the extended reals.

  The kernel walks a 4 x 8 grid: batch element by batch element, and within one, eight steps of two heads each. A step
  projects the element's tokens to the queries, keys and values of its two heads, takes the softmax of the scaled,
  masked scores along each row, averages the values with it, sends the result through the heads' 128 rows of the
  transposed output projection, and adds that to an accumulator cleared at the first step; the last step adds the bias
  and its output block is written back. The reference projects for all sixteen heads at once, cuts and lays the heads
  by reshapes and transposes, and contracts all 1024 channels of the output projection in one product.

  Entry by entry both are the same function of the argument arrays: the sum over the sixteen heads of the head's
  contribution, plus the bias. The only law between them is the regrouping of that finite sum (all channels at once;
  or 8 steps x 2 heads x 64 channels added from zero in step order), which holds on the extended reals without any
  finiteness, so the precondition is never opened. Format changes are the identity, the kernel's matrix products into
  zero and lane reductions are the host's products and reductions, and every literal (1/8, minus infinity, zero) is
  the same word on both sides.
-/
import proofs.«113542_j3238405341580_1_alg».proof.Defs
import proofs.«113542_j3238405341580_1_alg».proof.Proof.Gen.Kernel
import proofs.«113542_j3238405341580_1_alg».proof.Proof.Gen.Kernel.Frame
import proofs.«113542_j3238405341580_1_alg».proof.Proof.Gen.KernelIdeal
import proofs.«113542_j3238405341580_1_alg».proof.Proof.Gen.KernelIdeal.Frame
import proofs.«113542_j3238405341580_1_alg».proof.Proof.Gen.ReferenceIdeal
import proofs.«113542_j3238405341580_1_alg».proof.Proof.Gen.ReferenceIdeal.Run
import proofs.«113542_j3238405341580_1_alg».proof.Proof.Gen.Pre_finite_inputs
import proofs.«113542_j3238405341580_1_alg».proof.Proof.KernelValue
import proofs.«113542_j3238405341580_1_alg».proof.Proof.RefAttn
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the layer of their (agreeing) argument arrays in their result arrays. -/
theorem algebraic : Cert.algebraic_KernelIdeal_ReferenceIdeal := by
  intro m ρ m' ρ' _ hagree
  refine ⟨fun c => Cert.Attn.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.AttnValue.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v31_eq, Cert.ReferenceIdeal.AttnRead.ref_eq,
    (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
